-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg5 : FVec F S128 .f32) (main_arg6 : FVec F S128 .f32) (main_arg7 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S256x128 .f32) (main_arg5 : FVec F S128 .f32) (main_arg6 : FVec F S128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S2000x128 : Shape := ⟨2, ![2000, 128]⟩
abbrev S1x128 : Shape := ⟨2, ![1, 128]⟩
abbrev S2000x256 : Shape := ⟨2, ![2000, 256]⟩
abbrev S2000 : Shape := ⟨1, ![2000]⟩
abbrev S2000x1 : Shape := ⟨2, ![2000, 1]⟩

abbrev nBuf : Space → Nat
  | .hbm => 39
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S256x128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  concatenates_S2000x128_S2000x128_S2000x256_d1 : Shape.Concatenates [S2000x128, S2000x128] S2000x256 1
  inb_S256x128_S256x128_0_0 : ∀ a, (![0, 0] : Fin 2 → Nat) a + S256x128.size a ≤ S256x128.size a
  h_S256x128 : 0 < S256x128.numel
  reduces_S2000x128_S2000 : S2000x128.Reduces [1] S2000
  shapeCasts_S2000_S2000x1 : S2000.ShapeCasts S2000x1
  broadcasts_S2000x1_S2000x128 : S2000x1.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x256 : Shape := ⟨2, ![50000, 256]⟩

abbrev nBuf : Space → Nat
  | .hbm => 94
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S50000x256, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000, .f32⟩
  | .hbm, ⟨52, _⟩ => ⟨S50000x1, .f32⟩
  | .hbm, ⟨53, _⟩ => ⟨S_, .f32⟩
  | .hbm, ⟨54, _⟩ => ⟨S50000x1, .f32⟩
  | .hbm, ⟨55, _⟩ => ⟨S50000x1, .f32⟩
  | .hbm, ⟨56, _⟩ => ⟨S_, .i32⟩
  | .hbm, ⟨57, _⟩ => ⟨S_, .f32⟩
  | .hbm, ⟨58, _⟩ => ⟨S50000, .f32⟩
  | .hbm, ⟨59, _⟩ => ⟨S50000x1, .f32⟩
  | .hbm, ⟨60, _⟩ => ⟨S_, .f32⟩
  | .hbm, ⟨61, _⟩ => ⟨S50000x1, .f32⟩
  | .hbm, ⟨62, _⟩ => ⟨S50000x1, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S50000, .f32⟩
  | .hbm, ⟨71, _⟩ => ⟨S50000x1, .f32⟩
  | .hbm, ⟨72, _⟩ => ⟨S50000x1, .f32⟩
  | .hbm, ⟨73, _⟩ => ⟨S50000x1, .f32⟩
  | .hbm, ⟨74, _⟩ => ⟨S_, .f32⟩
  | .hbm, ⟨75, _⟩ => ⟨S_, .i1⟩
  | .hbm, ⟨76, _⟩ => ⟨S_, .f32⟩
  | .hbm, ⟨77, _⟩ => ⟨S_, .f32⟩
  | .hbm, ⟨78, _⟩ => ⟨S50000x1, .f32⟩
  | .hbm, ⟨79, _⟩ => ⟨S50000x1, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x1, .f32⟩
  | .hbm, ⟨84, _⟩ => ⟨S50000x1, .f32⟩
  | .hbm, ⟨85, _⟩ => ⟨S50000x1, .f32⟩
  | .hbm, ⟨86, _⟩ => ⟨S50000x128, .f32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call1_cst : Ref sig .tc := ⟨.hbm, 47, rfl⟩
abbrev main_call1_v0 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_call2_cst : Ref sig .tc := ⟨.hbm, 57, rfl⟩
abbrev main_call2_v0 : Ref sig .tc := ⟨.hbm, 58, rfl⟩
abbrev main_call2_v1 : Ref sig .tc := ⟨.hbm, 59, rfl⟩
abbrev main_call2_cst_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_cst_1 : Ref sig .tc := ⟨.hbm, 67, rfl⟩
abbrev main_call2_v8 : Ref sig .tc := ⟨.hbm, 68, rfl⟩
abbrev main_call2_cst_2 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_cst_3 : Ref sig .tc := ⟨.hbm, 74, rfl⟩
abbrev main_call2_v13 : Ref sig .tc := ⟨.hbm, 75, rfl⟩
abbrev main_call2_cst_4 : Ref sig .tc := ⟨.hbm, 76, rfl⟩
abbrev main_call2_call0_v0 : Ref sig .tc := ⟨.hbm, 77, rfl⟩
abbrev main_call2_call0_v1 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_7 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  reducesTo_S50000x128_S50000_d1 : S50000x128.ReducesTo [1] S50000
  h_S_ : 0 < S_.numel
  bcast_S_S50000x1 : S_.BroadcastsInDim S50000x1 (![] : Fin 0 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Layer.lean ====
/-
  The layer as mathematics, one node (one row) at a time.

  A node has its own feature vector `x : Fin 128 → EReal` and the mean `a : Fin 128 → EReal` of its
  in-neighbours' features. The layer sends the pair to
      f   = a · Wa + ba                      (the aggregator's linear map, 128 → 128)
      u   = [x | f] · W + b                  (the main linear map on the concatenation, 256 → 128)
      h   = max u 0                          (the rectifier)
      μ   = (Σ_j h_j) / 128 ,  d = h − μ ,  σ² = (Σ_j d_j²) / 128
      out = d · rsqrt(σ² + ε) · γ + β        (layer normalisation over the 128 features)
  Every operation is the extended reals' own; `128` and `ε` stay the two float words the programs print
  (the same word on both sides is never evaluated). A row of the result depends on that row of the two
  input arrays only, which is why a kernel that walks the nodes 2000 at a time and a reference that
  treats all 50000 at once compute the same array.
-/
import Idealize.ShloMosaic.PureOps.Ideal
import Idealize.ShloMosaic.Lib.ValueIdx

noncomputable section

open scoped BigOperators

namespace Cert.Layer

open Idealize.ShloMosaic Idealize.ShloMosaic.ValueIdx

/-- The float word `128.0`, read at the ideal values. -/
abbrev c128 : EReal := Ideal.ofBits .f32 0x43000000#32
/-- The float word nearest `1e-5`, read at the ideal values. -/
abbrev cEps : EReal := Ideal.ofBits .f32 0x3727C5AC#32

/-- The aggregator's linear map applied to the neighbour mean: `(a · Wa)_j + ba_j`. -/
def aggFeat (a : Fin 128 → EReal) (Wa : Fin 128 → Fin 128 → EReal) (ba : Fin 128 → EReal) (j : Fin 128) : EReal :=
  (∑ k : Fin 128, a k * Wa k j) + ba j

/-- The concatenation `[x | f]` at column `k < 256`: `x` on the first 128 columns, `f` on the last 128. -/
def combined (x f : Fin 128 → EReal) (k : Fin 256) : EReal :=
  if h : k.val < 128 then x ⟨k.val, h⟩ else f ⟨k.val - 128, by have := k.isLt; omega⟩

/-- The main linear map followed by the rectifier: `max (([x | f] · W)_j + b_j) 0`. -/
def act (x f : Fin 128 → EReal) (W : Fin 256 → Fin 128 → EReal) (b : Fin 128 → EReal) (j : Fin 128) : EReal :=
  max ((∑ k : Fin 256, combined x f k * W k j) + b j) 0

/-- The mean of a row of 128 entries: their sum divided by the word `128.0`. -/
def mean (h : Fin 128 → EReal) : EReal := Ideal.div (∑ j : Fin 128, h j) c128

/-- A row less its mean. -/
def centered (h : Fin 128 → EReal) (j : Fin 128) : EReal := h j - mean h

/-- The (biased) variance of a row: the mean of the squares of the centered entries. -/
def variance (h : Fin 128 → EReal) : EReal := Ideal.div (∑ j : Fin 128, centered h j * centered h j) c128

/-- Layer normalisation of a row with scale `γ` and shift `β`. -/
def norm (h γ β : Fin 128 → EReal) (j : Fin 128) : EReal :=
  centered h j * Ideal.rsqrt (variance h + cEps) * γ j + β j

/-- One node's output row from its own features `x` and its neighbour mean `a`. -/
def rowOut (x a : Fin 128 → EReal) (Wa : Fin 128 → Fin 128 → EReal) (ba : Fin 128 → EReal)
    (W : Fin 256 → Fin 128 → EReal) (b γ β : Fin 128 → EReal) (j : Fin 128) : EReal :=
  norm (act x (aggFeat a Wa ba) W b) γ β j

/-- The whole result over `R` nodes: row `r` is `rowOut` of row `r` of the feature array and of the
    neighbour-mean array; the weights, biases, scale and shift are shared by all rows. -/
def G {R : Nat} (x a : (⟨2, ![R, 128]⟩ : Shape).Idx → EReal) (Wa : (⟨2, ![128, 128]⟩ : Shape).Idx → EReal)
    (ba : (⟨1, ![128]⟩ : Shape).Idx → EReal) (W : (⟨2, ![256, 128]⟩ : Shape).Idx → EReal)
    (b γ β : (⟨1, ![128]⟩ : Shape).Idx → EReal) : (⟨2, ![R, 128]⟩ : Shape).Idx → EReal :=
  fun i => rowOut (fun k => x (ix2 (i 0) k)) (fun k => a (ix2 (i 0) k)) (fun k j => Wa (ix2 k j)) (fun j => ba (ix1 j))
    (fun k j => W (ix2 k j)) (fun j => b (ix1 j)) (fun j => γ (ix1 j)) (fun j => β (ix1 j)) (i 1)

end Cert.Layer

end
-- ==== Proof.RowOps.lean ====
/-
  Operations on row-major matrices read at an entry `(r, j)`, for any number of rows.

  Both programs treat their arrays as matrices with 128 (or 256, or 1) columns and act on each row alone:
  a bias row or a per-row column repeated across the matrix, two column blocks set side by side, a sum along
  the columns, a product with a weight matrix. Each lemma below reads one such operation at the entry
  `ix2 r j` as the operand's entry (or the sum over the contracted column) that it is. They are stated for the
  vector unit's spelling of the operation (`shapeCast`, `broadcastTo`, `multiReduction`, `matmul`) and for
  the host's (`broadcastInDim`, `Host.reduceAdd`, `Host.dotGeneral`), which differ in text only.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowOps

open Idealize.ShloMosaic Idealize.ShloMosaic.ValueIdx

variable {α : Type}

/-! ## A vector made a one-column matrix, and a one-column matrix repeated across the columns -/

/-- An `[a]` vector cast to `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The host's broadcasts -/

/-- A scalar broadcast to any shape reads the scalar everywhere. -/
theorem bcast_scalar_apply {t : Shape} (dims : Fin 0 → Fin t.rank) (h : (⟨0, ![]⟩ : Shape).BroadcastsInDim t dims)
    (v : (⟨0, ![]⟩ : Shape).Idx → α) (j : t.Idx) : broadcastInDim t dims h v j = v ix0 :=
  broadcastInDim_apply dims h v j ix0 fun ax => ax.elim0

/-- A `[b]` vector made the row of a `[1, b]` matrix. -/
theorem bcast_b_1b_apply {b : ℕ} (h : (⟨1, ![b]⟩ : Shape).BroadcastsInDim ⟨2, ![1, b]⟩ (![1] : Fin 1 → Fin 2))
    (v : (⟨1, ![b]⟩ : Shape).Idx → α) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A `[1, b]` row repeated down an `[a, b]` matrix. -/
theorem bcast_1b_ab_apply {a b : ℕ} (h : (⟨2, ![1, b]⟩ : Shape).BroadcastsInDim ⟨2, ![a, b]⟩ (![0, 1] : Fin 2 → Fin 2))
    (v : (⟨2, ![1, b]⟩ : Shape).Idx → α) (r : Fin a) (j : Fin b) :
    broadcastInDim ⟨2, ![a, b]⟩ ![0, 1] h v (ix2 r j) = v (ix2 (0 : Fin 1) j) := by
  refine broadcastInDim_apply _ h v (ix2 r j) (ix2 (0 : Fin 1) j) fun ax => ?_
  match ax with
  | ⟨0, _⟩ => rfl
  | ⟨1, _⟩ =>
    show j.val = if b = 1 then 0 else j.val
    split
    · have := j.isLt; omega
    · rfl

/-- An `[a, 1]` column repeated across an `[a, b]` matrix. -/
theorem bcast_a1_ab_apply {a b : ℕ} (h : (⟨2, ![a, 1]⟩ : Shape).BroadcastsInDim ⟨2, ![a, b]⟩ (![0, 1] : Fin 2 → Fin 2))
    (v : (⟨2, ![a, 1]⟩ : Shape).Idx → α) (r : Fin a) (j : Fin b) :
    broadcastInDim ⟨2, ![a, b]⟩ ![0, 1] h v (ix2 r j) = v (ix2 r (0 : Fin 1)) := by
  refine broadcastInDim_apply _ h v (ix2 r j) (ix2 r (0 : Fin 1)) fun ax => ?_
  match ax with
  | ⟨0, _⟩ =>
    show r.val = if a = 1 then 0 else r.val
    split
    · have := r.isLt; omega
    · rfl
  | ⟨1, _⟩ => rfl

/-- An `[a]` vector made the column of an `[a, 1]` matrix. -/
theorem bcast_a_a1_apply {a : ℕ} (h : (⟨1, ![a]⟩ : Shape).BroadcastsInDim ⟨2, ![a, 1]⟩ (![0] : Fin 1 → Fin 2))
    (v : (⟨1, ![a]⟩ : Shape).Idx → α) (r : Fin a) (u : Fin 1) :
    broadcastInDim ⟨2, ![a, 1]⟩ ![0] h v (ix2 r u) = v (ix1 r) := by
  refine broadcastInDim_apply _ h v (ix2 r u) (ix1 r) fun ax => ?_
  match ax with
  | ⟨0, _⟩ =>
    show r.val = if a = 1 then 0 else r.val
    split
    · have := r.isLt; omega
    · rfl

/-! ## Two blocks of 128 columns side by side -/

/-- The concatenation `[X | Y]` along the columns, at `(r, k)`: `X` on the first 128 columns, `Y` on the rest. -/
theorem concat_cols_apply {a : ℕ} (X Y : (⟨2, ![a, 128]⟩ : Shape).Idx → α)
    (h : Shape.Concatenates [(⟨2, ![a, 128]⟩ : Shape), ⟨2, ![a, 128]⟩] ⟨2, ![a, 256]⟩ 1) (r : Fin a) (k : Fin 256) :
    concatenate ⟨2, ![a, 256]⟩ 1 [⟨⟨2, ![a, 128]⟩, X⟩, ⟨⟨2, ![a, 128]⟩, Y⟩] h (ix2 r k)
      = if hk : k.val < 128 then X (ix2 r ⟨k.val, hk⟩) else Y (ix2 r ⟨k.val - 128, by have := k.isLt; omega⟩) := by
  split
  · next hk =>
    exact concatenate_pair_apply_left 1 X Y h (ix2 r k) rfl (ix2 r ⟨k.val, hk⟩)
      (fun b => match b with | ⟨0, _⟩ => rfl | ⟨1, _⟩ => rfl)
  · next hk =>
    exact concatenate_pair_apply_right 1 X Y h (ix2 r k) rfl rfl (ix2 r ⟨k.val - 128, by have := k.isLt; omega⟩)
      (fun b hb => match b, hb with | ⟨0, _⟩, _ => rfl | ⟨1, _⟩, hb => absurd rfl hb)
      (by show (k.val - 128) + 128 = k.val; omega)

end Cert.RowOps

end
-- ==== Proof.RowSums.lean ====
/-
  Sums along a row and matrix products, read at an entry, at the ideal values.

  At the ideal values a sum along the columns — the vector unit's lane reduction, or the host's reduce from an
  initial value — is the finite sum of the row's entries (the host's with its initial value in front), and a
  product of an `m × k` by a `k × n` matrix — the matrix unit's into a zero accumulator, or the host's
  dot_general — is at `(r, j)` the sum over the contracted column `c` of `A (r, c) · B (c, j)`. No order of
  summation, no rounding and no accumulator is left in either.
-/
import Idealize.ShloMosaic.PureOps.Ideal.Laws
import Idealize.ShloMosaic.Lib.ValueIdx
import Idealize.ShloMosaic.Lib.StackMember

noncomputable section

open scoped BigOperators

namespace Cert.RowSums

open Idealize.ShloMosaic Idealize.ShloMosaic.ValueIdx

variable {φ : FTy}

/-- The entry a row index and a column make, as the reduction's own spelling of it: the reduced index `(r)`
    with the column `k` put back on axis 1 is `(r, k)`. -/
theorem lift_row {a b : ℕ} (h : (⟨2, ![a, b]⟩ : Shape).Reduces [1] ⟨1, ![a]⟩) (r : Fin a) (k : Fin b) :
    h.lift (ix1 r) k = ix2 r k := by
  funext c; apply Fin.ext
  match c with
  | ⟨0, _⟩ => rfl
  | ⟨1, _⟩ => rfl

/-- The vector unit's sum along the columns, at row `r`: the sum of the row. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  show ∑ k : Fin b, src (h.lift (ix1 r) k) = _
  exact Finset.sum_congr rfl fun k _ => congrArg src (lift_row h r k)

/-- The host's sum along the columns from an initial value, at row `r`: the initial value plus the sum of the row. -/
theorem hostSum_apply {a b : ℕ} (x : FVec Ideal ⟨2, ![a, b]⟩ φ) (init : (⟨0, ![]⟩ : Shape).Idx → Ideal φ)
    (h' : (⟨2, ![a, b]⟩ : Shape).ReducesTo [1] ⟨1, ![a]⟩) (hu : 0 < (⟨0, ![]⟩ : Shape).numel)
    (h : (⟨2, ![a, b]⟩ : Shape).Reduces [1] ⟨1, ![a]⟩) (r : Fin a) :
    Host.reduceAdd x init h' hu (ix1 r) = init ix0 + ∑ k : Fin b, x (ix2 r k) := by
  unfold Host.reduceAdd
  rw [Ideal.hostReduceAdd_def]
  refine (Ideal.hostReduceAdd_single h' h x _ (ix1 r)).trans ?_
  have e0 : init (Shape.Idx.first hu) = init ix0 := congrArg init (funext fun ax => ax.elim0)
  rw [e0]
  show init ix0 + ∑ k : Fin b, x (h.lift (ix1 r) k) = _
  exact congrArg (init ix0 + ·) (Finset.sum_congr rfl fun k _ => congrArg x (lift_row h r k))

/-- The matrix unit's product into a zero accumulator, at `(r, j)`: the sum over the contracted column. -/
theorem matmul_plain_apply {m k n : ℕ} {φ₁ φ₂ : FTy} (prec : Option ContractPrecision)
    (A : FVec Ideal ⟨2, ![m, k]⟩ φ₁) (B : FVec Ideal ⟨2, ![k, n]⟩ φ₂) (r : Fin m) (j : Fin n) :
    matmul (DotDims.plain m k n) prec A B (constant (F := Ideal) ⟨2, ![m, n]⟩ .f32 0x00000000#32) (ix2 r j)
      = ∑ c : Fin k, A (ix2 r c) * B (ix2 c j) := by
  show FloatOps.matmul _ prec A B _ (ix2 r j) = _
  rw [Ideal.matmul_constant_zero_apply, ← Equiv.sum_comp (contrEquiv1 (DotDims.plain m k n) k rfl rfl).symm]
  refine Finset.sum_congr rfl fun c _ => ?_
  have c2 := contrEquiv1_symm_val (DotDims.plain m k n) k rfl rfl c
  have l2 : (DotDims.plain m k n).lhsIdx (ix2 r j) ((contrEquiv1 _ k rfl rfl).symm c) = ix2 r c := by
    funext ax; apply Fin.ext
    match ax with
    | ⟨0, _⟩ => simp [DotDims.lhsIdx, DotDims.plain]; rfl
    | ⟨1, _⟩ => simp [DotDims.lhsIdx, DotDims.plain]; exact c2
  have r2 : (DotDims.plain m k n).rhsIdx (ix2 r j) ((contrEquiv1 _ k rfl rfl).symm c) = ix2 c j := by
    funext ax; apply Fin.ext
    match ax with
    | ⟨0, _⟩ => simp [DotDims.rhsIdx, DotDims.plain]; exact c2
    | ⟨1, _⟩ => simp [DotDims.rhsIdx, DotDims.plain]; rfl
  rw [l2, r2]

/-- The host's product, at `(r, j)`: the same sum. -/
theorem dot_plain_apply {m k n : ℕ} {φ₁ φ₂ : FTy} (prec : Option ContractPrecision)
    (A : FVec Ideal ⟨2, ![m, k]⟩ φ₁) (B : FVec Ideal ⟨2, ![k, n]⟩ φ₂) (r : Fin m) (j : Fin n) :
    Host.dotGeneral (DotDims.plain m k n) prec A B (ix2 r j) = ∑ c : Fin k, A (ix2 r c) * B (ix2 c j) :=
  StackMember.dotGeneral_plain_apply prec A B r j

end Cert.RowSums

end
-- ==== Proof.KernelRow.lean ====
/-
  The kernel's body on one block of 2000 nodes is the layer, row by row.

  The body loads the block's 2000 feature rows `P0` and neighbour-mean rows `P1` and the whole parameter
  arrays, and stores one 2000 × 128 block. Read at the ideal values (a change of float format is the identity,
  a product into a zero accumulator is the plain sum of products, a lane sum is the sum of the row) its stages
  are, at row `r` and column `j`:
    the aggregator's linear map   `(Σ_c P1(r,c) · P2(c,j)) + P3(j)`,
    the rectified main linear map `max ((Σ_c [P0 | ·](r,c) · P4(c,j)) + P5(j)) 0`,
    the centered row, its variance, and the normalised, scaled and shifted entry —
  exactly `Layer.G` at `R = 2000`: the block's row `r` depends on row `r` of `P0` and `P1` only.
-/
import proofs.«109304_j10385230921949_2_alg».proof.Proof.Gen.KernelIdeal.Value
import proofs.«109304_j10385230921949_2_alg».proof.Proof.Layer
import proofs.«109304_j10385230921949_2_alg».proof.Proof.RowOps
import proofs.«109304_j10385230921949_2_alg».proof.Proof.RowSums

noncomputable section

open scoped BigOperators

namespace Cert.KernelIdeal.KernelRow

open Cert.KernelIdeal Idealize.ShloMosaic Idealize.ShloMosaic.ValueIdx
open Cert.KernelIdeal.Facts₀ Cert.KernelIdeal.Facts

/-! ## The body's stages, named -/

/-- The aggregator's linear map on the block: `P1 · P2 + P3` (the product taken after a change of format). -/
def aggLin (P1 : Vec Ideal S2000x128 .f32) (P2 : Vec Ideal S128x128 .f32) (P3 : Vec Ideal S128 .f32) : FVec Ideal S2000x128 .f32 :=
  addf (matmul dot_S2000x128_S128x128_S2000x128_1_0_0_1_n_n none
      (truncf .bf16 (shapeCast S2000x128 P1 shapeCasts_S2000x128_S2000x128) bitsLt_bf16_f32) (truncf .bf16 P2 bitsLt_bf16_f32)
      (constant S2000x128 .f32 0x00000000#32))
    (broadcastTo S2000x128 (shapeCast S1x128 P3 shapeCasts_S128_S1x128) broadcasts_S1x128_S2000x128)

/-- The rectified main linear map on the block: `max ([P0 | aggLin] · P4 + P5) 0`. -/
def hid (P0 P1 : Vec Ideal S2000x128 .f32) (P2 : Vec Ideal S128x128 .f32) (P3 : Vec Ideal S128 .f32)
    (P4 : Vec Ideal S256x128 .f32) (P5 : Vec Ideal S128 .f32) : FVec Ideal S2000x128 .f32 :=
  maximumf
    (addf (matmul dot_S2000x256_S256x128_S2000x128_1_0_0_1_n_n none
        (truncf .bf16 (concatenate S2000x256 1 [⟨S2000x128, P0⟩, ⟨S2000x128, aggLin P1 P2 P3⟩] concatenates_S2000x128_S2000x128_S2000x256_d1) bitsLt_bf16_f32)
        (truncf .bf16 P4 bitsLt_bf16_f32) (constant S2000x128 .f32 0x00000000#32))
      (broadcastTo S2000x128 (shapeCast S1x128 P5 shapeCasts_S128_S1x128) broadcasts_S1x128_S2000x128))
    (broadcast S2000x128 (Scalar.ofBits .f32 0x00000000#32))

/-- The body's first payload is the rectified block less its row means. -/
theorem pay2_eq (P0 P1 : Vec Ideal S2000x128 .f32) (P2 : Vec Ideal S128x128 .f32) (P3 : Vec Ideal S128 .f32)
    (P4 : Vec Ideal S256x128 .f32) (P5 : Vec Ideal S128 .f32) :
    Gen.k0_pay2 P0 P1 P2 P3 P4 P5
      = subf (hid P0 P1 P2 P3 P4 P5)
          (broadcastTo S2000x128
            (divf (shapeCast S2000x1 (multiReduction .add [1] S2000 (hid P0 P1 P2 P3 P4 P5) 0x00000000#32 reduces_S2000x128_S2000 (.inl rfl) rfl) shapeCasts_S2000_S2000x1)
              (broadcast S2000x1 (Scalar.ofBits .f32 0x43000000#32)))
            broadcasts_S2000x1_S2000x128) := rfl

/-- The printed dimension records are the plain `M×K` by `K×N` ones. -/
theorem dot1_eq : dot_S2000x128_S128x128_S2000x128_1_0_0_1_n_n = DotDims.plain 2000 128 128 := rfl
theorem dot2_eq : dot_S2000x256_S256x128_S2000x128_1_0_0_1_n_n = DotDims.plain 2000 256 128 := rfl

/-! ## The stages at an entry -/

/-- A bias vector repeated down the block, at `(r, j)`: the vector at `j`. -/
theorem bias_apply (P : Vec Ideal S128 .f32) (r : Fin 2000) (j : Fin 128) :
    broadcastTo S2000x128 (shapeCast S1x128 P shapeCasts_S128_S1x128) broadcasts_S1x128_S2000x128 (ix2 r j) = P (ix1 j) := by
  rw [broadcastTo_1b_ab_apply, shapeCast_a_1a_apply]

theorem aggLin_apply (P1 : Vec Ideal S2000x128 .f32) (P2 : Vec Ideal S128x128 .f32) (P3 : Vec Ideal S128 .f32)
    (r : Fin 2000) (j : Fin 128) :
    aggLin P1 P2 P3 (ix2 r j)
      = Layer.aggFeat (fun k => P1 (ix2 r k)) (fun k j => P2 (ix2 k j)) (fun j => P3 (ix1 j)) j := by
  unfold aggLin Layer.aggFeat
  rw [addf_apply, bias_apply, dot1_eq, RowSums.matmul_plain_apply]
  refine congrArg (· + P3 (ix1 j)) (Finset.sum_congr rfl fun c _ => ?_)
  rw [truncf_apply, truncf_apply, shapeCast_self]

theorem hid_apply (P0 P1 : Vec Ideal S2000x128 .f32) (P2 : Vec Ideal S128x128 .f32) (P3 : Vec Ideal S128 .f32)
    (P4 : Vec Ideal S256x128 .f32) (P5 : Vec Ideal S128 .f32) (r : Fin 2000) (j : Fin 128) :
    hid P0 P1 P2 P3 P4 P5 (ix2 r j)
      = Layer.act (fun k => P0 (ix2 r k)) (Layer.aggFeat (fun k => P1 (ix2 r k)) (fun k j => P2 (ix2 k j)) (fun j => P3 (ix1 j)))
          (fun k j => P4 (ix2 k j)) (fun j => P5 (ix1 j)) j := by
  unfold hid Layer.act
  rw [maximumf_apply, addf_apply, bias_apply, dot2_eq, RowSums.matmul_plain_apply, broadcast_apply]
  show max _ (Ideal.ofBits .f32 0x00000000#32) = _
  rw [Ideal.ofBits_zero_f32]
  refine congrArg (fun s => max (s + P5 (ix1 j)) 0) (Finset.sum_congr rfl fun c _ => ?_)
  rw [truncf_apply, truncf_apply, RowOps.concat_cols_apply]
  unfold Layer.combined
  split
  · rfl
  · rw [aggLin_apply]

/-- Row `r` of the block after the two linear maps and the rectifier, as the layer states it. -/
abbrev rowAct (P0 P1 : Vec Ideal S2000x128 .f32) (P2 : Vec Ideal S128x128 .f32) (P3 : Vec Ideal S128 .f32)
    (P4 : Vec Ideal S256x128 .f32) (P5 : Vec Ideal S128 .f32) (r : Fin 2000) : Fin 128 → EReal :=
  Layer.act (fun k => P0 (ix2 r k)) (Layer.aggFeat (fun k => P1 (ix2 r k)) (fun k j => P2 (ix2 k j)) (fun j => P3 (ix1 j)))
    (fun k j => P4 (ix2 k j)) (fun j => P5 (ix1 j))

/-- The first payload at `(r, j)`: the rectified row less its mean — the lane sum of the row, made a column,
    divided by the word `128.0` and repeated across the columns. -/
theorem pay2_apply (P0 P1 : Vec Ideal S2000x128 .f32) (P2 : Vec Ideal S128x128 .f32) (P3 : Vec Ideal S128 .f32)
    (P4 : Vec Ideal S256x128 .f32) (P5 : Vec Ideal S128 .f32) (r : Fin 2000) (j : Fin 128) :
    Gen.k0_pay2 P0 P1 P2 P3 P4 P5 (ix2 r j) = Layer.centered (rowAct P0 P1 P2 P3 P4 P5 r) j := by
  rw [pay2_eq, subf_apply, RowOps.broadcastTo_a1_ab_apply, divf_apply, RowOps.shapeCast_a_a1_apply, broadcast_apply, hid_apply]
  refine congrArg (fun s => rowAct P0 P1 P2 P3 P4 P5 r j - Ideal.div s Layer.c128) ?_
  refine (RowSums.laneSum_apply _ _ _ _ _ r).trans ?_
  exact Finset.sum_congr rfl fun k _ => hid_apply P0 P1 P2 P3 P4 P5 r k

/-- The lane sum of the squared first payload at row `r`: the sum of the squares of the centered row. -/
theorem sq_sum_apply (P0 P1 : Vec Ideal S2000x128 .f32) (P2 : Vec Ideal S128x128 .f32) (P3 : Vec Ideal S128 .f32)
    (P4 : Vec Ideal S256x128 .f32) (P5 : Vec Ideal S128 .f32) (r : Fin 2000) :
    multiReduction .add [1] S2000 (mulf (Gen.k0_pay2 P0 P1 P2 P3 P4 P5) (Gen.k0_pay2 P0 P1 P2 P3 P4 P5)) 0x00000000#32
        reduces_S2000x128_S2000 (.inl rfl) rfl (ix1 r)
      = ∑ k : Fin 128, Layer.centered (rowAct P0 P1 P2 P3 P4 P5 r) k * Layer.centered (rowAct P0 P1 P2 P3 P4 P5 r) k := by
  refine (RowSums.laneSum_apply _ _ _ _ _ r).trans ?_
  refine Finset.sum_congr rfl fun k _ => ?_
  rw [mulf_apply, pay2_apply]

/-! ## The block the body leaves is the layer on the block -/

/-- What the body's store leaves in the output block is `Layer.G` of the loaded blocks and parameter arrays. -/
theorem block_eq (P0 P1 : Vec Ideal S2000x128 .f32) (P2 : Vec Ideal S128x128 .f32) (P3 : Vec Ideal S128 .f32)
    (P4 : Vec Ideal S256x128 .f32) (P5 P6 P7 : Vec Ideal S128 .f32) :
    Value.E8 P0 P1 P2 P3 P4 P5 P6 P7 = Layer.G P0 P1 P2 P3 P4 P5 P6 P7 := by
  funext y
  obtain ⟨r, j, rfl⟩ : ∃ (r : Fin 2000) (j : Fin 128), y = ix2 r j := ⟨y 0, y 1, eq_ix2 y⟩
  have i0 : Value.ix8_0 (ix2 r j) = ix2 r j := by
    funext a; apply Fin.ext
    match a with
    | ⟨0, _⟩ => rfl
    | ⟨1, _⟩ => rfl
  have i1 : Value.ix8_1 (ix2 r j) = ix1 r := by
    funext a; apply Fin.ext
    match a with
    | ⟨0, _⟩ => rfl
  have i2 : Value.ix8_2 (ix2 r j) = ix1 j := by
    funext a; apply Fin.ext
    match a with
    | ⟨0, _⟩ => rfl
  have i3 : Value.ix8_3 (ix2 r j) = ix1 j := by
    funext a; apply Fin.ext
    match a with
    | ⟨0, _⟩ => rfl
  show FloatOps.addf (FloatOps.mulf (FloatOps.mulf (Gen.k0_pay2 P0 P1 P2 P3 P4 P5 (Value.ix8_0 (ix2 r j))) _) _) _ = _
  rw [i0, i1, i2, i3, pay2_apply, sq_sum_apply]
  rfl

end Cert.KernelIdeal.KernelRow

end
-- ==== Proof.RefTerm.lean ====
/-
  The reference program's result as ONE pure term of its argument arrays, in two stages.

  `nbrMean x ei` — the mean over each node's in-edges of the source nodes' feature rows: the sources' rows
  gathered (a negative source index wrapped once by the number of nodes), summed into the destination rows
  (a scatter-add into zeros), and divided by the in-degree (a scatter-add of ones) clipped below at one.
  Both programs compute it with the same host operations; nothing below ever looks inside it.

  `dense x a …` — the dense part the reference applies to `x` and that mean `a`: the aggregator's linear map,
  the concatenation, the main linear map, the rectifier and the layer normalisation, with the variance taken
  as jax's `var` takes it (its own mean, the square as a product, the divisor `128 - ddof` with `ddof = 0`
  converted from an integer, and a select that keeps the quotient when the divisor is positive).
-/
import proofs.«109304_j10385230921949_2_alg».proof.ReferenceIdeal

noncomputable section

namespace Cert.ReferenceIdeal.RefTerm

open Cert.ReferenceIdeal Idealize.ShloMosaic
open Cert.ReferenceIdeal.Facts₀ Cert.ReferenceIdeal.Facts

variable {F : FTy → Type} [FloatOps F] [Facts]

/-- The contents of a tensor value of shape `S` and element type `e`. -/
abbrev C (S : Shape) (e : EltTy) : Type := (⟨S, e⟩ : BufTy).Contents (Elt F)

/-- The neighbour mean: operations %0 … %21 of the reference's @main (the call of `clip` inlined). -/
def nbrMean (x : C (F := F) S50000x128 .f32) (ei : C (F := F) S2x800000 .i32) : C (F := F) S50000x128 .f32 :=
  have v0 : C (F := F) S1x800000 .i32 := extractStridedSlice S1x800000 ![0, 0] ei slices_S2x800000_S1x800000_0_0
  have v1 : C (F := F) S800000 .i32 := shapeCast S800000 v0 shapeCasts_S1x800000_S800000
  have v2 : C (F := F) S1x800000 .i32 := extractStridedSlice S1x800000 ![1, 0] ei slices_S2x800000_S1x800000_1_0
  have v3 : C (F := F) S800000 .i32 := shapeCast S800000 v2 shapeCasts_S1x800000_S800000
  have v4 : C (F := F) S800000 .i32 := broadcastInDim S800000 ![] bcast_S_S800000 (constantI S_ 32 0#32)
  have v5 : C (F := F) S800000 .i1 := cmpi .slt v1 v4
  have v6 : C (F := F) S800000 .i32 := broadcastInDim S800000 ![] bcast_S_S800000 (constantI S_ 32 50000#32)
  have v7 : C (F := F) S800000 .i32 := addi v1 v6
  have v8 : C (F := F) S800000 .i32 := select v5 v7 v1
  have v9 : C (F := F) S800000x1 .i32 := broadcastInDim S800000x1 ![0] bcast_S800000_S800000x1_0 v8
  have v10 : C (F := F) S800000x128 .f32 := Host.gather gather_S50000x128_S800000x1_S800000x128_1_0_n_n_0_1_1128 x v9
  have v11 : C (F := F) S50000x128 .f32 := broadcastInDim S50000x128 ![] bcast_S_S50000x128 (constant S_ .f32 0x00000000#32)
  have v12 : C (F := F) S800000x1 .i32 := broadcastInDim S800000x1 ![0] bcast_S800000_S800000x1_0 v3
  have v13 : C (F := F) S50000x128 .f32 := Host.scatterAdd scatter_S50000x128_S800000x1_S800000x128_1_0_0_1 v11 v12 v10
  have v14 : C (F := F) S800000 .f32 := broadcastInDim S800000 ![] bcast_S_S800000 (constant S_ .f32 0x3F800000#32)
  have v15 : C (F := F) S50000 .f32 := broadcastInDim S50000 ![] bcast_S_S50000 (constant S_ .f32 0x00000000#32)
  have v16 : C (F := F) S800000x1 .i32 := broadcastInDim S800000x1 ![0] bcast_S800000_S800000x1_0 v3
  have v17 : C (F := F) S50000 .f32 := Host.scatterAdd scatter_S50000_S800000x1_S800000_n_0_0_1 v15 v16 v14
  have k1 : C (F := F) S50000 .f32 := broadcastInDim S50000 ![] bcast_S_S50000 (id (constant S_ .f32 0x3F800000#32))
  have v18 : C (F := F) S50000 .f32 := maximumf k1 v17
  have v19 : C (F := F) S50000x1 .f32 := broadcastInDim S50000x1 ![0] bcast_S50000_S50000x1_0 v18
  have v20 : C (F := F) S50000x128 .f32 := broadcastInDim S50000x128 ![0, 1] bcast_S50000x1_S50000x128_0_1 v19
  Host.divf v13 v20

/-- The rectified linear part: operations %22 … %31 (the call of `relu` inlined). -/
def hidden (x a : C (F := F) S50000x128 .f32) (aggW : C (F := F) S128x128 .f32) (aggb : C (F := F) S128 .f32)
    (W : C (F := F) S256x128 .f32) (b : C (F := F) S128 .f32) : C (F := F) S50000x128 .f32 :=
  have v22 : C (F := F) S50000x128 .f32 := Host.dotGeneral dot_S50000x128_S128x128_S50000x128_1_0_0_1_n_n none a aggW
  have v23 : C (F := F) S1x128 .f32 := broadcastInDim S1x128 ![1] bcast_S128_S1x128_1 aggb
  have v24 : C (F := F) S50000x128 .f32 := broadcastInDim S50000x128 ![0, 1] bcast_S1x128_S50000x128_0_1 v23
  have v25 : C (F := F) S50000x128 .f32 := addf v22 v24
  have v26 : C (F := F) S50000x256 .f32 := concatenate S50000x256 1 [⟨S50000x128, x⟩, ⟨S50000x128, v25⟩] concatenates_S50000x128_S50000x128_S50000x256_d1
  have v27 : C (F := F) S50000x128 .f32 := Host.dotGeneral dot_S50000x256_S256x128_S50000x128_1_0_0_1_n_n none v26 W
  have v28 : C (F := F) S1x128 .f32 := broadcastInDim S1x128 ![1] bcast_S128_S1x128_1 b
  have v29 : C (F := F) S50000x128 .f32 := broadcastInDim S50000x128 ![0, 1] bcast_S1x128_S50000x128_0_1 v28
  have v30 : C (F := F) S50000x128 .f32 := addf v27 v29
  maximumf v30 (broadcastInDim S50000x128 ![] bcast_S_S50000x128 (constant S_ .f32 0x00000000#32))

/-- The row means, as a column: operations %32 … %35. -/
def meanCol (h : C (F := F) S50000x128 .f32) : C (F := F) S50000x1 .f32 :=
  have v32 : C (F := F) S50000 .f32 := Host.reduceAdd h (constant S_ .f32 0x00000000#32) reducesTo_S50000x128_S50000_d1 h_S_
  have v33 : C (F := F) S50000x1 .f32 := broadcastInDim S50000x1 ![0] bcast_S50000_S50000x1_0 v32
  Host.divf v33 (broadcastInDim S50000x1 ![] bcast_S_S50000x1 (constant S_ .f32 0x43000000#32))

/-- The row variances, as a column: the call of `_var` (and of `_where` inside it) inlined, %36. -/
def varCol (h : C (F := F) S50000x128 .f32) : C (F := F) S50000x1 .f32 :=
  have w0 : C (F := F) S50000 .f32 := Host.reduceAdd h (constant S_ .f32 0x00000000#32) reducesTo_S50000x128_S50000_d1 h_S_
  have w1 : C (F := F) S50000x1 .f32 := broadcastInDim S50000x1 ![0] bcast_S50000_S50000x1_0 w0
  have w2 : C (F := F) S50000x1 .f32 := broadcastInDim S50000x1 ![] bcast_S_S50000x1 (constant S_ .f32 0x43000000#32)
  have w3 : C (F := F) S50000x1 .f32 := Host.divf w1 w2
  have w4 : C (F := F) S50000x128 .f32 := broadcastInDim S50000x128 ![0, 1] bcast_S50000x1_S50000x128_0_1 w3
  have w5 : C (F := F) S50000x128 .f32 := subf h w4
  have w6 : C (F := F) S50000x128 .f32 := mulf w5 w5
  have w7 : C (F := F) S_ .f32 := sitofp .f32 (constantI S_ 32 0#32)
  have w8 : C (F := F) S_ .f32 := subf (constant S_ .f32 0x43000000#32) w7
  have w9 : C (F := F) S50000 .f32 := Host.reduceAdd w6 (constant S_ .f32 0x00000000#32) reducesTo_S50000x128_S50000_d1 h_S_
  have w10 : C (F := F) S50000x1 .f32 := broadcastInDim S50000x1 ![0] bcast_S50000_S50000x1_0 w9
  have w11 : C (F := F) S50000x1 .f32 := broadcastInDim S50000x1 ![] bcast_S_S50000x1 w8
  have w12 : C (F := F) S50000x1 .f32 := Host.divf w10 w11
  have w13 : C (F := F) S_ .i1 := cmpf .ogt w8 (constant S_ .f32 0x00000000#32)
  have n1 : C (F := F) S50000x1 .f32 := broadcastInDim S50000x1 ![] bcast_S_S50000x1 (id (constant S_ .f32 0x7FC00000#32))
  select (broadcastInDim S50000x1 ![] bcast_S_S50000x1 w13) w12 n1

/-- The normalisation: operations %37 … %49. -/
def normed (h : C (F := F) S50000x128 .f32) (mu var : C (F := F) S50000x1 .f32) (gamma beta : C (F := F) S128 .f32) :
    C (F := F) S50000x128 .f32 :=
  have v37 : C (F := F) S50000x128 .f32 := broadcastInDim S50000x128 ![0, 1] bcast_S50000x1_S50000x128_0_1 mu
  have v38 : C (F := F) S50000x128 .f32 := subf h v37
  have v39 : C (F := F) S50000x1 .f32 := broadcastInDim S50000x1 ![] bcast_S_S50000x1 (constant S_ .f32 0x3727C5AC#32)
  have v40 : C (F := F) S50000x1 .f32 := addf var v39
  have v41 : C (F := F) S50000x1 .f32 := Host.rsqrt v40
  have v42 : C (F := F) S50000x128 .f32 := broadcastInDim S50000x128 ![0, 1] bcast_S50000x1_S50000x128_0_1 v41
  have v43 : C (F := F) S50000x128 .f32 := mulf v38 v42
  have v44 : C (F := F) S1x128 .f32 := broadcastInDim S1x128 ![1] bcast_S128_S1x128_1 gamma
  have v45 : C (F := F) S50000x128 .f32 := broadcastInDim S50000x128 ![0, 1] bcast_S1x128_S50000x128_0_1 v44
  have v46 : C (F := F) S50000x128 .f32 := mulf v43 v45
  have v47 : C (F := F) S1x128 .f32 := broadcastInDim S1x128 ![1] bcast_S128_S1x128_1 beta
  have v48 : C (F := F) S50000x128 .f32 := broadcastInDim S50000x128 ![0, 1] bcast_S1x128_S50000x128_0_1 v47
  addf v46 v48

/-- The dense part: the reference's result as a term of `x`, the neighbour mean `a` and the parameters. -/
def dense (x a : C (F := F) S50000x128 .f32) (aggW : C (F := F) S128x128 .f32) (aggb : C (F := F) S128 .f32)
    (W : C (F := F) S256x128 .f32) (b gamma beta : C (F := F) S128 .f32) : C (F := F) S50000x128 .f32 :=
  normed (hidden x a aggW aggb W b) (meanCol (hidden x a aggW aggb W b)) (varCol (hidden x a aggW aggb W b)) gamma beta

/-- The reference's result. -/
def out (x : C (F := F) S50000x128 .f32) (ei : C (F := F) S2x800000 .i32) (aggW : C (F := F) S128x128 .f32)
    (aggb : C (F := F) S128 .f32) (W : C (F := F) S256x128 .f32) (b gamma beta : C (F := F) S128 .f32) :
    C (F := F) S50000x128 .f32 :=
  dense x (nbrMean x ei) aggW aggb W b gamma beta

end Cert.ReferenceIdeal.RefTerm

end
-- ==== Proof.KernelArray.lean ====
/-
  From the kernel's blocks to its whole output array.

  The kernel walks the 50000 nodes 2000 at a time. Grid point `t` stages rows `2000·t … 2000·t + 1999` of the
  feature array and of the neighbour-mean array, stages the six parameter arrays whole, and writes back rows
  `2000·t … 2000·t + 1999` of the result. The layer `Cert.Layer.G` is row-local: row `r` of its result is a
  function of row `r` of the two row arrays and of the shared parameters only. So the block of rows that point
  `t` writes back — `G` over 2000 rows, of the two staged blocks — is rows `2000·t …` of `G` over 50000 rows,
  of the whole arrays. The 25 blocks cover the array (row `r` lies in block `r / 2000`), hence the array ends
  holding `G` of the whole arrays. The neighbour-mean array itself is what the host operations before the
  region compute from the features and the edge list, and those are the reference's own operations.
-/
import proofs.«109304_j10385230921949_2_alg».proof.Proof.Gen.KernelIdeal.Value
import proofs.«109304_j10385230921949_2_alg».proof.Proof.Gen.ReferenceIdeal
import proofs.«109304_j10385230921949_2_alg».proof.Proof.RefTerm
import proofs.«109304_j10385230921949_2_alg».proof.Proof.Layer
import Idealize.ShloMosaic.Lib.Pipeline.Value
import Idealize.ShloMosaic.Lib.ValueIdx
import Idealize.ShloMosaic.Lib.StableHlo.Run

noncomputable section

namespace Cert.KernelIdeal.KernelArray

open Cert.KernelIdeal Cert.KernelIdeal.Gen Idealize.ShloMosaic Idealize.ShloMosaic.TcCoe Idealize.SL.Sem Idealize.ShloMosaic.ValueIdx

/-! ## The layer is row-local -/

/-- Row `r` of `G` over `R` rows is row `r'` of `G` over `R'` rows as soon as the two feature arrays agree on
    those rows and the two neighbour-mean arrays do: nothing else of the row arrays is read. -/
theorem G_row {R R' : Nat} (x a : (⟨2, ![R, 128]⟩ : Shape).Idx → EReal) (x' a' : (⟨2, ![R', 128]⟩ : Shape).Idx → EReal)
    (Wa : (⟨2, ![128, 128]⟩ : Shape).Idx → EReal) (ba : (⟨1, ![128]⟩ : Shape).Idx → EReal)
    (W : (⟨2, ![256, 128]⟩ : Shape).Idx → EReal) (b γ β : (⟨1, ![128]⟩ : Shape).Idx → EReal)
    (r : Fin R) (r' : Fin R') (j : Fin 128)
    (hx : ∀ k : Fin 128, x (ix2 r k) = x' (ix2 r' k)) (ha : ∀ k : Fin 128, a (ix2 r k) = a' (ix2 r' k)) :
    Cert.Layer.G x a Wa ba W b γ β (ix2 r j) = Cert.Layer.G x' a' Wa ba W b γ β (ix2 r' j) := by
  show Cert.Layer.rowOut (fun k => x (ix2 r k)) (fun k => a (ix2 r k)) _ _ _ _ _ _ j
    = Cert.Layer.rowOut (fun k => x' (ix2 r' k)) (fun k => a' (ix2 r' k)) _ _ _ _ _ _ j
  rw [funext hx, funext ha]

/-! ## The index maps over the grid -/

/-- The zero offsets of a rank-2 rectangle, as the constant function. -/
theorem zero2 : (![0, 0] : Fin 2 → Nat) = fun _ => 0 := funext fun a => by fin_cases a <;> rfl
/-- The zero offset of a rank-1 rectangle, as the constant function. -/
theorem zero1 : (![0] : Fin 1 → Nat) = fun _ => 0 := funext fun a => by fin_cases a <;> rfl

/-- Where each window's block sits, checked at each of the 25 grid points: the two row-blocked inputs and the
    output are at block `(t, 0)`; every parameter array is at block zero. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_8.index t (0 : Fin 2) = t.val ∧ win0_8.index t (1 : Fin 2) = 0)
    ∧ (win0_2.index t (0 : Fin 2) = 0 ∧ win0_2.index t (1 : Fin 2) = 0)
    ∧ win0_3.index t (0 : Fin 1) = 0
    ∧ (win0_4.index t (0 : Fin 2) = 0 ∧ win0_4.index t (1 : Fin 2) = 0)
    ∧ win0_5.index t (0 : Fin 1) = 0
    ∧ win0_6.index t (0 : Fin 1) = 0
    ∧ win0_7.index t (0 : Fin 1) = 0 :=
  (by decide +kernel : ∀ t : Fin grid0.N, _)

section Blocks

variable {F : FTy → Type} [FloatOps F]
variable (m : (ℓ : Loc nD τ sig) → Buf (Elt F) ℓ)

/-! ## The input blocks, read off the arrays -/

/-- Row `r` of the feature block at point `t` is row `2000·t + r` of the feature array. -/
theorem featBlk_row (c : Dev nD) (t : Fin cfg0.N) (r : Fin 2000) (k : Fin 128) (r' : Fin 50000)
    (hr : r'.val = 2000 * t.val + r.val) :
    (iblk m c 0 t : Vec F S2000x128 .f32) (ix2 r k) = (V m c main_arg0 : S50000x128.Idx → Elt F .f32) (ix2 r' k) := by
  obtain ⟨⟨e0, e1⟩, -⟩ := index_facts t
  show V m c main_arg0 (((cfg0.win 0).blk t).view.emb (ix2 r k)) = V m c main_arg0 (ix2 r' k)
  refine congrArg _ (funext fun a => Fin.ext ?_)
  match a with
  | ⟨0, _⟩ => show win0_0.index t (0 : Fin 2) * 2000 + 1 * r.val = r'.val; rw [e0, hr]; omega
  | ⟨1, _⟩ => show win0_0.index t (1 : Fin 2) * 128 + 1 * k.val = k.val; rw [e1]; omega

/-- Row `r` of the neighbour-mean block at point `t` is row `2000·t + r` of the neighbour-mean array. -/
theorem nbrBlk_row (c : Dev nD) (t : Fin cfg0.N) (r : Fin 2000) (k : Fin 128) (r' : Fin 50000)
    (hr : r'.val = 2000 * t.val + r.val) :
    (iblk m c 1 t : Vec F S2000x128 .f32) (ix2 r k) = (V m c main_v21 : S50000x128.Idx → Elt F .f32) (ix2 r' k) := by
  obtain ⟨-, ⟨e0, e1⟩, -⟩ := index_facts t
  show V m c main_v21 (((cfg0.win 1).blk t).view.emb (ix2 r k)) = V m c main_v21 (ix2 r' k)
  refine congrArg _ (funext fun a => Fin.ext ?_)
  match a with
  | ⟨0, _⟩ => show win0_1.index t (0 : Fin 2) * 2000 + 1 * r.val = r'.val; rw [e0, hr]; omega
  | ⟨1, _⟩ => show win0_1.index t (1 : Fin 2) * 128 + 1 * k.val = k.val; rw [e1]; omega

/-- A parameter array's block, at any point, is the whole array: its one block sits at offset zero. Here the
    aggregator's weight matrix. -/
theorem aggW_whole (c : Dev nD) (t : Fin cfg0.N) :
    (iblk m c 2 t : Vec F S128x128 .f32) = (V m c main_arg2 : S128x128.Idx → Elt F .f32) := by
  obtain ⟨-, -, -, ⟨e0, e1⟩, -⟩ := index_facts t
  funext y
  show V m c main_arg2 (((cfg0.win 2).blk t).view.emb y) = V m c main_arg2 y
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The aggregator's bias, staged whole. -/
theorem aggB_whole (c : Dev nD) (t : Fin cfg0.N) :
    (iblk m c 3 t : Vec F S128 .f32) = (V m c main_arg3 : S128.Idx → Elt F .f32) := by
  obtain ⟨-, -, -, -, e0, -⟩ := index_facts t
  funext y
  show V m c main_arg3 (((cfg0.win 3).blk t).view.emb y) = V m c main_arg3 y
  refine congrArg _ (funext fun a => Fin.ext ?_)
  match a with
  | ⟨0, _⟩ => show win0_3.index t (0 : Fin 1) * 128 + 1 * (y 0).val = (y 0).val; rw [e0]; omega

/-- The main weight matrix, staged whole. -/
theorem mainW_whole (c : Dev nD) (t : Fin cfg0.N) :
    (iblk m c 4 t : Vec F S256x128 .f32) = (V m c main_arg4 : S256x128.Idx → Elt F .f32) := by
  obtain ⟨-, -, -, -, -, ⟨e0, e1⟩, -⟩ := index_facts t
  funext y
  show V m c main_arg4 (((cfg0.win 4).blk t).view.emb y) = V m c main_arg4 y
  refine congrArg _ (funext fun a => Fin.ext ?_)
  match a with
  | ⟨0, _⟩ => show win0_4.index t (0 : Fin 2) * 256 + 1 * (y 0).val = (y 0).val; rw [e0]; omega
  | ⟨1, _⟩ => show win0_4.index t (1 : Fin 2) * 128 + 1 * (y 1).val = (y 1).val; rw [e1]; omega

/-- The main bias, staged whole. -/
theorem mainB_whole (c : Dev nD) (t : Fin cfg0.N) :
    (iblk m c 5 t : Vec F S128 .f32) = (V m c main_arg5 : S128.Idx → Elt F .f32) := by
  obtain ⟨-, -, -, -, -, -, e0, -⟩ := index_facts t
  funext y
  show V m c main_arg5 (((cfg0.win 5).blk t).view.emb y) = V m c main_arg5 y
  refine congrArg _ (funext fun a => Fin.ext ?_)
  match a with
  | ⟨0, _⟩ => show win0_5.index t (0 : Fin 1) * 128 + 1 * (y 0).val = (y 0).val; rw [e0]; omega

/-- The normalisation's scale, staged whole. -/
theorem scale_whole (c : Dev nD) (t : Fin cfg0.N) :
    (iblk m c 6 t : Vec F S128 .f32) = (V m c main_arg6 : S128.Idx → Elt F .f32) := by
  obtain ⟨-, -, -, -, -, -, -, e0, -⟩ := index_facts t
  funext y
  show V m c main_arg6 (((cfg0.win 6).blk t).view.emb y) = V m c main_arg6 y
  refine congrArg _ (funext fun a => Fin.ext ?_)
  match a with
  | ⟨0, _⟩ => show win0_6.index t (0 : Fin 1) * 128 + 1 * (y 0).val = (y 0).val; rw [e0]; omega

/-- The normalisation's shift, staged whole. -/
theorem shift_whole (c : Dev nD) (t : Fin cfg0.N) :
    (iblk m c 7 t : Vec F S128 .f32) = (V m c main_arg7 : S128.Idx → Elt F .f32) := by
  obtain ⟨-, -, -, -, -, -, -, -, e0⟩ := index_facts t
  funext y
  show V m c main_arg7 (((cfg0.win 7).blk t).view.emb y) = V m c main_arg7 y
  refine congrArg _ (funext fun a => Fin.ext ?_)
  match a with
  | ⟨0, _⟩ => show win0_7.index t (0 : Fin 1) * 128 + 1 * (y 0).val = (y 0).val; rw [e0]; omega

/-! ## The output's blocks -/

/-- Row `r` of the output block at point `t` sits at row `2000·t + r` of the output array. -/
theorem outBlk_emb (t : Fin cfg0.N) (r : Fin 2000) (j : Fin 128) (r' : Fin 50000) (hr : r'.val = 2000 * t.val + r.val) :
    ((cfg0.win 8).blk t).view.emb (ix2 r j : S2000x128.Idx) = (ix2 r' j : S50000x128.Idx) := by
  obtain ⟨-, -, ⟨e0, e1⟩, -⟩ := index_facts t
  refine funext fun a => Fin.ext ?_
  match a with
  | ⟨0, _⟩ => show win0_8.index t (0 : Fin 2) * 2000 + 1 * r.val = r'.val; rw [e0, hr]; omega
  | ⟨1, _⟩ => show win0_8.index t (1 : Fin 2) * 128 + 1 * j.val = j.val; rw [e1]; omega

/-- Membership in point `t`'s block of the output array, coordinate by coordinate: on each axis the coordinate
    lies from the block's offset up to the offset plus the block's extent. -/
theorem mem_outBlk (t : Fin cfg0.N) (i : S50000x128.Idx) :
    i ∈ ((cfg0.win 8).blk t).view.set ↔ ∀ a : Fin 2, win0_8.index t a * S2000x128.size a ≤ (i a).val ∧ (i a).val < win0_8.index t a * S2000x128.size a + S2000x128.size a := by
  show i ∈ ((View.whole main_v22).slice (win0_8.rect t)).set ↔ _
  rw [View.set_slice_whole, Rect.mem_set_unit]
  exact Iff.rfl

/-- The 25 blocks cover the output array: row `r` lies in the block of point `r / 2000`. -/
theorem cover (i : S50000x128.Idx) : ∃ t : Fin cfg0.N, (cfg0.win 8).flush t = true ∧ i ∈ ((cfg0.win 8).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  have ht : t.val = (i 0).val / 2000 := rfl
  obtain ⟨-, -, ⟨e0, e1⟩, -⟩ := index_facts t
  refine ⟨t, flush0_8 t, ?_⟩
  rw [mem_outBlk]
  intro a
  match a with
  | ⟨0, _⟩ => show win0_8.index t (0 : Fin 2) * 2000 ≤ (i 0).val ∧ (i 0).val < win0_8.index t (0 : Fin 2) * 2000 + 2000; rw [e0, ht]; omega
  | ⟨1, _⟩ => show win0_8.index t (1 : Fin 2) * 128 ≤ (i 1).val ∧ (i 1).val < win0_8.index t (1 : Fin 2) * 128 + 128; rw [e1]; omega

end Blocks

/-! ## What a point writes back, and the whole array -/

section Final

variable (hpay : ∀ (P0 P1 : Vec Ideal S2000x128 .f32) (P2 : Vec Ideal S128x128 .f32) (P3 : Vec Ideal S128 .f32)
    (P4 : Vec Ideal S256x128 .f32) (P5 P6 P7 : Vec Ideal S128 .f32),
    Cert.KernelIdeal.Value.E8 P0 P1 P2 P3 P4 P5 P6 P7 = Cert.Layer.G P0 P1 P2 P3 P4 P5 P6 P7)
variable (m : (ℓ : Loc nD τ sig) → Buf (Elt Ideal) ℓ)

include hpay

/-- What the body leaves in the output's staging buffer, as a function of the eight staged blocks, is the layer
    over 2000 rows: the body's loads read the staged blocks whole, its one store covers the buffer. -/
theorem out_eq (P0 P1 : Vec Ideal S2000x128 .f32) (P2 : Vec Ideal S128x128 .f32) (P3 : Vec Ideal S128 .f32)
    (P4 : Vec Ideal S256x128 .f32) (P5 P6 P7 : Vec Ideal S128 .f32) :
    out0_8 P0 P1 P2 P3 P4 P5 P6 P7 = Cert.Layer.G P0 P1 P2 P3 P4 P5 P6 P7 := by
  unfold out0_8
  simp only [View.ld_unit_zero (S := S2000x128) zero2, View.ld_unit_zero (S := S128x128) zero2,
    View.ld_unit_zero (S := S256x128) zero2, View.ld_unit_zero (S := S128) zero1]
  funext y
  rw [Cert.KernelIdeal.Value.canon8_eq]
  exact congrFun (hpay P0 P1 P2 P3 P4 P5 P6 P7) y

/-- The block of rows that point `t` writes back is rows `2000·t … 2000·t + 1999` of the layer over the whole
    arrays, as they stand when the region is entered. -/
theorem flushed_eq (c : Dev nD) (t : Fin cfg0.N) :
    (dats m 0 c).flushed 8 t = ((cfg0.win 8).blk t).view.read (Elt Ideal)
      (Cert.Layer.G (V m c main_arg0 : S50000x128.Idx → EReal) (V m c main_v21 : S50000x128.Idx → EReal)
        (V m c main_arg2 : S128x128.Idx → EReal) (V m c main_arg3 : S128.Idx → EReal) (V m c main_arg4 : S256x128.Idx → EReal)
        (V m c main_arg5 : S128.Idx → EReal) (V m c main_arg6 : S128.Idx → EReal) (V m c main_arg7 : S128.Idx → EReal)) := by
  rw [Cert.KernelIdeal.Value.flushed8, out_eq hpay, aggW_whole m c t, aggB_whole m c t, mainW_whole m c t, mainB_whole m c t,
    scale_whole m c t, shift_whole m c t]
  refine funext fun (y : S2000x128.Idx) => ?_
  obtain ⟨r, j, rfl⟩ : ∃ (r : Fin 2000) (j : Fin 128), y = ix2 r j := ⟨y 0, y 1, eq_ix2 y⟩
  have hN : cfg0.N = 25 := N_0
  have htlt : t.val < 25 := hN ▸ t.isLt
  let r' : Fin 50000 := ⟨2000 * t.val + r.val, by have := r.isLt; omega⟩
  have hr : r'.val = 2000 * t.val + r.val := rfl
  show Cert.Layer.G (iblk m c 0 t) (iblk m c 1 t) _ _ _ _ _ _ (ix2 r j)
    = Cert.Layer.G (V m c main_arg0 : S50000x128.Idx → EReal) (V m c main_v21 : S50000x128.Idx → EReal) _ _ _ _ _ _
        (((cfg0.win 8).blk t).view.emb (ix2 r j : S2000x128.Idx))
  rw [outBlk_emb t r j r' hr]
  exact G_row _ _ _ _ _ _ _ _ _ _ r r' j (fun k => featBlk_row m c t r k r' hr) (fun k => nbrBlk_row m c t r k r' hr)

/-- Hence the output array ends holding the layer over all 50000 rows, of the arrays as they stand when the
    region is entered. -/
theorem final (c : Dev nD) :
    (dats m 0 c).arrAt 8 cfg0.N
      = Cert.Layer.G (V m c main_arg0 : S50000x128.Idx → EReal) (V m c main_v21 : S50000x128.Idx → EReal)
        (V m c main_arg2 : S128x128.Idx → EReal) (V m c main_arg3 : S128.Idx → EReal) (V m c main_arg4 : S256x128.Idx → EReal)
        (V m c main_arg5 : S128.Idx → EReal) (V m c main_arg6 : S128.Idx → EReal) (V m c main_arg7 : S128.Idx → EReal) :=
  (dats m 0 c).arrAt_eq_of_cover 8 _ (fun t _ => flushed_eq hpay m c t) cover

end Final

/-! ## The host prefix -/

attribute [local irreducible] Host.gather Host.scatterAdd in
/-- The neighbour-mean array the region finds is the reference's neighbour-mean term of the launched feature array
    and edge list: the host operations before the region are the reference's own, one for one — the edge list's two
    rows, the wrapped source indices, the gathered rows summed into their destinations, the in-degrees clipped below
    at one, and the quotient. The two programs' dimension records and shapes are the same literals. -/
theorem nbr_eq {F : FTy → Type} [FloatOps F] (m : (ℓ : Loc nD τ sig) → Buf (Elt F) ℓ) (c : Dev nD) :
    V m c main_v21 = Cert.ReferenceIdeal.RefTerm.nbrMean (m ((c : Thread nD τ).loc main_arg0)) (m ((c : Thread nD τ).loc main_arg1)) := by
  dsimp only [Gen.V]
  simp only [Gen.hostOps0, Gen.hostOps0_1, Gen.hostOps0_2, List.flatten_cons, List.flatten_nil, List.append_nil,
    List.cons_append, List.nil_append]
  after_results_simp
  rfl

/-! ## The run, read -/

section Run

variable (hpay : ∀ (P0 P1 : Vec Ideal S2000x128 .f32) (P2 : Vec Ideal S128x128 .f32) (P3 : Vec Ideal S128 .f32)
    (P4 : Vec Ideal S256x128 .f32) (P5 P6 P7 : Vec Ideal S128 .f32),
    Cert.KernelIdeal.Value.E8 P0 P1 P2 P3 P4 P5 P6 P7 = Cert.Layer.G P0 P1 P2 P3 P4 P5 P6 P7)
variable (m : (ℓ : Loc nD τ sig) → Buf (Elt Ideal) ℓ) (ρ : Dev nD → PrngReg)

include hpay

/-- The array after the run, over the launched arrays: no host operation writes an argument array, and the
    neighbour-mean array is the reference's term. -/
theorem final_launched (c : Dev nD) :
    (dats m 0 c).arrAt 8 cfg0.N
      = Cert.Layer.G (m ((c : Thread nD τ).loc main_arg0))
          (Cert.ReferenceIdeal.RefTerm.nbrMean (m ((c : Thread nD τ).loc main_arg0)) (m ((c : Thread nD τ).loc main_arg1)))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  rw [final hpay m c, nbr_eq m c, V_main_arg0 m c, V_main_arg2 m c, V_main_arg3 m c, V_main_arg4 m c, V_main_arg5 m c,
    V_main_arg6 m c, V_main_arg7 m c]

/-- Every run of the program ends with the output array at the layer of the launched arrays, and with each
    argument array as it was launched. -/
theorem run : θ_run defs (onTc (τ := τ) (main (F := Ideal))) ⟨m, fun _ => 0, ρ⟩ fun r => ∀ c : Dev nD,
      r.2.mem ((c : Thread nD τ).loc main_v22)
        = Cert.Layer.G (m ((c : Thread nD τ).loc main_arg0))
            (Cert.ReferenceIdeal.RefTerm.nbrMean (m ((c : Thread nD τ).loc main_arg0)) (m ((c : Thread nD τ).loc main_arg1)))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_launched hpay m c), (h c).2⟩)
    (Cert.KernelIdeal.Value.run_blocks m ρ)

end Run

end Cert.KernelIdeal.KernelArray

end
-- ==== Proof.RefRun.lean ====
/-
  The reference program's run, read back as one pure term of its arguments.

  The program has no kernel: it is a straight line of tensor operations, three of them calls of
  module-local functions (a clip below at one, a rectifier, a row variance that itself calls a
  select). A call executes the callee's body on the operands, so the straight line is the list
  below: the caller's operations in order, and at each call site the callee's operations over
  that call's own buffers, the innermost call included. Every buffer is written exactly once
  (eighty-six operations for the eighty-six values that are not arguments), so what a buffer
  holds at the end is the composition of the operations on the path from the arguments to it,
  and an argument's buffer is never written at all.
-/
import proofs.«109304_j10385230921949_2_alg».proof.Proof.Gen.ReferenceIdeal
import proofs.«109304_j10385230921949_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's eighty-six operations in execution order. Operations 24 … 26 are the clip's
    (the bound converted to its own type, broadcast, the maximum), 39 … 41 the rectifier's (zero,
    its broadcast, the maximum), 49 … 71 the row variance's: the row sums and the mean, the centred
    values and their squares, the divisor `128 - ddof`, the sum of squares over it, the test that the
    divisor is positive, and last the select's three (the not-a-number constant converted, broadcast,
    the select itself). -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    TRef.unary (.of main_cst_3) main_call0.v0 id,
    TRef.unary main_call0.v0 main_call0.v1 (broadcastInDim S50000 ![] bcast_S_S50000),
    TRef.binary main_call0.v1 (.of main_v17) main_call0.v2 maximumf,
    unary main_v18 main_v19 (broadcastInDim S50000x1 ![0] bcast_S50000_S50000x1_0 : (⟨S50000, .f32⟩ : BufTy).Contents (Elt F) → (⟨S50000x1, .f32⟩ : BufTy).Contents (Elt F)),
    unary main_v19 main_v20 (broadcastInDim S50000x128 ![0, 1] bcast_S50000x1_S50000x128_0_1 : (⟨S50000x1, .f32⟩ : BufTy).Contents (Elt F) → (⟨S50000x128, .f32⟩ : BufTy).Contents (Elt F)),
    binary main_v13 main_v20 main_v21 (Host.divf : (⟨S50000x128, .f32⟩ : BufTy).Contents (Elt F) → (⟨S50000x128, .f32⟩ : BufTy).Contents (Elt F) → (⟨S50000x128, .f32⟩ : BufTy).Contents (Elt F)),
    binary main_v21 main_arg2 main_v22 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v23 (broadcastInDim S1x128 ![1] bcast_S128_S1x128_1 : (⟨S128, .f32⟩ : BufTy).Contents (Elt F) → (⟨S1x128, .f32⟩ : BufTy).Contents (Elt F)),
    unary main_v23 main_v24 (broadcastInDim S50000x128 ![0, 1] bcast_S1x128_S50000x128_0_1 : (⟨S1x128, .f32⟩ : BufTy).Contents (Elt F) → (⟨S50000x128, .f32⟩ : BufTy).Contents (Elt F)),
    binary main_v22 main_v24 main_v25 (addf : (⟨S50000x128, .f32⟩ : BufTy).Contents (Elt F) → (⟨S50000x128, .f32⟩ : BufTy).Contents (Elt F) → (⟨S50000x128, .f32⟩ : BufTy).Contents (Elt F)),
    binary main_arg0 main_v25 main_v26 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v26 main_arg4 main_v27 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg5 main_v28 (broadcastInDim S1x128 ![1] bcast_S128_S1x128_1 : (⟨S128, .f32⟩ : BufTy).Contents (Elt F) → (⟨S1x128, .f32⟩ : BufTy).Contents (Elt F)),
    unary main_v28 main_v29 (broadcastInDim S50000x128 ![0, 1] bcast_S1x128_S50000x128_0_1 : (⟨S1x128, .f32⟩ : BufTy).Contents (Elt F) → (⟨S50000x128, .f32⟩ : BufTy).Contents (Elt F)),
    binary main_v27 main_v29 main_v30 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v30) main_call1.v0 main_call1.v1 maximumf,
    nullary main_cst_4 (constant S_ .f32 0x00000000#32),
    binary main_v31 main_cst_4 main_v32 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v32 main_v33 (broadcastInDim S50000x1 ![0] bcast_S50000_S50000x1_0 : (⟨S50000, .f32⟩ : BufTy).Contents (Elt F) → (⟨S50000x1, .f32⟩ : BufTy).Contents (Elt F)),
    nullary main_cst_5 (constant S_ .f32 0x43000000#32),
    unary main_cst_5 main_v34 (broadcastInDim S50000x1 ![] bcast_S_S50000x1 : (⟨S_, .f32⟩ : BufTy).Contents (Elt F) → (⟨S50000x1, .f32⟩ : BufTy).Contents (Elt F)),
    binary main_v33 main_v34 main_v35 (Host.divf : (⟨S50000x1, .f32⟩ : BufTy).Contents (Elt F) → (⟨S50000x1, .f32⟩ : BufTy).Contents (Elt F) → (⟨S50000x1, .f32⟩ : BufTy).Contents (Elt F)),
    nullary main_c_6 (constantI S_ 32 0#32),
    TRef.nullary main_call2.cst (constant S_ .f32 0x00000000#32),
    TRef.binary (.of main_v31) main_call2.cst main_call2.v0 (fun x v => Host.reduceAdd x v reducesTo_S50000x128_S50000_d1 h_S_),
    TRef.unary main_call2.v0 main_call2.v1 (broadcastInDim S50000x1 ![0] bcast_S50000_S50000x1_0),
    TRef.nullary main_call2.cst_0 (constant S_ .f32 0x43000000#32),
    TRef.unary main_call2.cst_0 main_call2.v2 (broadcastInDim S50000x1 ![] bcast_S_S50000x1),
    TRef.binary main_call2.v1 main_call2.v2 main_call2.v3 Host.divf,
    TRef.unary main_call2.v3 main_call2.v4 (broadcastInDim S50000x128 ![0, 1] bcast_S50000x1_S50000x128_0_1),
    TRef.binary (.of main_v31) main_call2.v4 main_call2.v5 subf,
    TRef.binary main_call2.v5 main_call2.v5 main_call2.v6 mulf,
    TRef.unary (.of main_c_6) main_call2.v7 (sitofp .f32),
    TRef.nullary main_call2.cst_1 (constant S_ .f32 0x43000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S50000_d1 h_S_),
    TRef.unary main_call2.v9 main_call2.v10 (broadcastInDim S50000x1 ![0] bcast_S50000_S50000x1_0),
    TRef.unary main_call2.v8 main_call2.v11 (broadcastInDim S50000x1 ![] bcast_S_S50000x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S50000x1 ![] bcast_S_S50000x1),
    TRef.ternary main_call2.v13 main_call2.v12 main_call2.call0.v1 main_call2.call0.v2 (fun p a b => select (broadcastInDim S50000x1 ![] bcast_S_S50000x1 p) a b),
    unary main_v35 main_v37 (broadcastInDim S50000x128 ![0, 1] bcast_S50000x1_S50000x128_0_1 : (⟨S50000x1, .f32⟩ : BufTy).Contents (Elt F) → (⟨S50000x128, .f32⟩ : BufTy).Contents (Elt F)),
    binary main_v31 main_v37 main_v38 (subf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x3727C5AC#32),
    unary main_cst_7 main_v39 (broadcastInDim S50000x1 ![] bcast_S_S50000x1 : (⟨S_, .f32⟩ : BufTy).Contents (Elt F) → (⟨S50000x1, .f32⟩ : BufTy).Contents (Elt F)),
    binary main_v36 main_v39 main_v40 (addf : (⟨S50000x1, .f32⟩ : BufTy).Contents (Elt F) → (⟨S50000x1, .f32⟩ : BufTy).Contents (Elt F) → (⟨S50000x1, .f32⟩ : BufTy).Contents (Elt F)),
    unary main_v40 main_v41 (Host.rsqrt : (⟨S50000x1, .f32⟩ : BufTy).Contents (Elt F) → (⟨S50000x1, .f32⟩ : BufTy).Contents (Elt F)),
    unary main_v41 main_v42 (broadcastInDim S50000x128 ![0, 1] bcast_S50000x1_S50000x128_0_1 : (⟨S50000x1, .f32⟩ : BufTy).Contents (Elt F) → (⟨S50000x128, .f32⟩ : BufTy).Contents (Elt F)),
    binary main_v38 main_v42 main_v43 (mulf : (⟨S50000x128, .f32⟩ : BufTy).Contents (Elt F) → (⟨S50000x128, .f32⟩ : BufTy).Contents (Elt F) → (⟨S50000x128, .f32⟩ : BufTy).Contents (Elt F)),
    unary main_arg6 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (mulf : (⟨S50000x128, .f32⟩ : BufTy).Contents (Elt F) → (⟨S50000x128, .f32⟩ : BufTy).Contents (Elt F) → (⟨S50000x128, .f32⟩ : BufTy).Contents (Elt F)),
    unary main_arg7 main_v47 (broadcastInDim S1x128 ![1] bcast_S128_S1x128_1 : (⟨S128, .f32⟩ : BufTy).Contents (Elt F) → (⟨S1x128, .f32⟩ : BufTy).Contents (Elt F)),
    unary main_v47 main_v48 (broadcastInDim S50000x128 ![0, 1] bcast_S1x128_S50000x128_0_1 : (⟨S1x128, .f32⟩ : BufTy).Contents (Elt F) → (⟨S50000x128, .f32⟩ : BufTy).Contents (Elt F)),
    binary main_v46 main_v48 main_v49 (addf : (⟨S50000x128, .f32⟩ : BufTy).Contents (Elt F) → (⟨S50000x128, .f32⟩ : BufTy).Contents (Elt F) → (⟨S50000x128, .f32⟩ : BufTy).Contents (Elt F)) ]

-- eighty-six binds to re-associate, one recursion of the rewriter per statement
set_option maxRecDepth 4096 in
set_option maxHeartbeats 4000000 in
/-- The program is that straight line: with the two windows of its body and the callees'
    definitions unfolded at their calls, both sides are one chain of steps once sequencing is
    re-associated to the right and the callees' closing returns are absorbed. -/
theorem main_eq (c : Dev nD) : main (F := F) c = seq ops := by
  simp only [main, main_part0, main_part1, fn_clip.body, fn_relu.body, fn_var.body, fn_where.body, seq, bind_assoc, pure_bind]

/-- No buffer of the program is scoped to a region: every one is a tensor value. -/
theorem scopedRefs_eq : (Finset.univ.filter fun b : Ref sig .tc => b.isScoped) = ∅ := by decide
/-- The program has no semaphore at all. -/
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., unary_bufs_sub .., binary_bufs_sub .., unary_bufs_sub .., unary_bufs_sub .., binary_bufs_sub ..,
    binary_bufs_sub .., unary_bufs_sub .., unary_bufs_sub .., binary_bufs_sub .., binary_bufs_sub .., binary_bufs_sub ..,
    unary_bufs_sub .., unary_bufs_sub .., binary_bufs_sub .., nullary_bufs_sub .., unary_bufs_sub .., binary_bufs_sub ..,
    nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

/-! ## What the buffers hold at the end

Unrolling the fold, a buffer read after an operation is the operation's value if the operation
writes that buffer and what it held before otherwise; which of the two is decided on the
references, which are literals. Applied from the last operation back, the output buffer becomes
the operations' composed term over the arguments' first contents. A callee's operation is stated at
the tensor value's type and moved to its buffer's type along an equation that is a reflexivity at
these literal buffers, so the move is the identity, and the composed term is the closed form
`RefTerm.out` by computation. The gather, the two scatter-adds and the row sums are kept folded
meanwhile: the equation never looks inside them (the two contractions are a field of the float
operations, opaque already). -/

attribute [local irreducible] Host.reduceAdd Host.gather Host.scatterAdd in
set_option maxRecDepth 8192 in
set_option maxHeartbeats 4000000 in
theorem out_eq (V : Valuation τ sig (Elt F)) :
    after ops V (main_v49 : DevRef τ sig) = RefTerm.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  after_results_simp
  rfl

/-! No operation writes an argument's buffer. -/

set_option maxRecDepth 8192 in
set_option maxHeartbeats 4000000 in
theorem arg0_eq (V : Valuation τ sig (Elt F)) :
    after ops V (main_arg0 : DevRef τ sig) = V (main_arg0 : DevRef τ sig) := by
  after_results_simp

set_option maxRecDepth 8192 in
set_option maxHeartbeats 4000000 in
theorem arg1_eq (V : Valuation τ sig (Elt F)) :
    after ops V (main_arg1 : DevRef τ sig) = V (main_arg1 : DevRef τ sig) := by
  after_results_simp

set_option maxRecDepth 8192 in
set_option maxHeartbeats 4000000 in
theorem arg2_eq (V : Valuation τ sig (Elt F)) :
    after ops V (main_arg2 : DevRef τ sig) = V (main_arg2 : DevRef τ sig) := by
  after_results_simp

set_option maxRecDepth 8192 in
set_option maxHeartbeats 4000000 in
theorem arg3_eq (V : Valuation τ sig (Elt F)) :
    after ops V (main_arg3 : DevRef τ sig) = V (main_arg3 : DevRef τ sig) := by
  after_results_simp

set_option maxRecDepth 8192 in
set_option maxHeartbeats 4000000 in
theorem arg4_eq (V : Valuation τ sig (Elt F)) :
    after ops V (main_arg4 : DevRef τ sig) = V (main_arg4 : DevRef τ sig) := by
  after_results_simp

set_option maxRecDepth 8192 in
set_option maxHeartbeats 4000000 in
theorem arg5_eq (V : Valuation τ sig (Elt F)) :
    after ops V (main_arg5 : DevRef τ sig) = V (main_arg5 : DevRef τ sig) := by
  after_results_simp

set_option maxRecDepth 8192 in
set_option maxHeartbeats 4000000 in
theorem arg6_eq (V : Valuation τ sig (Elt F)) :
    after ops V (main_arg6 : DevRef τ sig) = V (main_arg6 : DevRef τ sig) := by
  after_results_simp

set_option maxRecDepth 8192 in
set_option maxHeartbeats 4000000 in
theorem arg7_eq (V : Valuation τ sig (Elt F)) :
    after ops V (main_arg7 : DevRef τ sig) = V (main_arg7 : DevRef τ sig) := by
  after_results_simp

/-- On the one device, for any float values, from any memory with zero counters: every weakly fair
    execution of the program terminates with the output buffer at `RefTerm.out` of the arguments'
    first contents, and every argument's buffer unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = RefTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v49).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ)

end Cert.ReferenceIdeal.RefRun

end
-- ==== Proof.Words.lean ====
/-
  The three facts about float words that the reference's variance needs.

  jax's `var` divides the sum of squares by `128 - ddof`, with `ddof = 0` given as an integer and converted,
  and keeps the quotient only where that divisor is positive. At the ideal values the converted integer `0`
  is the real `0`, so the divisor is the word `128.0` itself, and `128.0` denotes the real `128 > 0`.
-/
import Idealize.ShloMosaic.PureOps.Ideal
import Idealize.ShloMosaic.PureOps.Ideal.Laws

noncomputable section

namespace Cert.Words

open Idealize.ShloMosaic

/-- The word `128.0` denotes the real `128`. -/
theorem ofBits_128 : Ideal.ofBits .f32 0x43000000#32 = ((128 : ℝ) : EReal) := by
  simp [Ideal.ofBits, Ideal.ieee, -EReal.coe_mul]; norm_num

/-- The integer `0` converted to a float is `0`. -/
theorem sitofp_zero : FloatOps.sitofp (F := Ideal) .f32 (0#32 : BitVec 32) = (0 : EReal) := by
  show (((0#32 : BitVec 32).toInt : ℝ) : EReal) = 0
  simp

/-- The variance's divisor `128.0 - 0` is the word `128.0`. -/
theorem divisor_eq : (Ideal.ofBits .f32 0x43000000#32 : EReal) - FloatOps.sitofp (F := Ideal) .f32 (0#32 : BitVec 32)
    = Ideal.ofBits .f32 0x43000000#32 := by
  rw [sitofp_zero, sub_zero]

/-- The divisor is positive: the comparison `128.0 - 0 > 0.0` answers one. -/
theorem divisor_pos :
    FloatOps.cmpf (F := Ideal) (φ := .f32) .ogt
      ((Ideal.ofBits .f32 0x43000000#32 : EReal) - FloatOps.sitofp (F := Ideal) .f32 (0#32 : BitVec 32))
      (Ideal.ofBits .f32 0x00000000#32) = 1#1 := by
  rw [divisor_eq, Ideal.ofBits_zero_f32, Ideal.cmpf_def, ofBits_128]
  have h : (0 : EReal) < ((128 : ℝ) : EReal) := by exact_mod_cast (by norm_num : (0 : ℝ) < 128)
  simp [Ideal.cmp, h]

end Cert.Words

end
-- ==== Proof.RefValue.lean ====
/-
  The reference's dense part is the layer, row by row.

  Read at the ideal values at row `r` and column `j`, the reference's stages over all 50000 nodes are the same
  stages the layer names: the two linear maps with their biases, the concatenation, the rectifier, the row
  mean (a host sum from the initial value `0`, divided by `128.0`), jax's variance (its own mean, the square
  as a product, the divisor `128.0 - 0` kept because it is positive) and the normalisation. So the result is
  `Layer.G` at `R = 50000` of the feature array, the neighbour-mean array and the parameters.
-/
import proofs.«109304_j10385230921949_2_alg».proof.Proof.RefTerm
import proofs.«109304_j10385230921949_2_alg».proof.Proof.Layer
import proofs.«109304_j10385230921949_2_alg».proof.Proof.RowOps
import proofs.«109304_j10385230921949_2_alg».proof.Proof.RowSums
import proofs.«109304_j10385230921949_2_alg».proof.Proof.Words

noncomputable section

open scoped BigOperators

namespace Cert.ReferenceIdeal.RefValue

open Cert.ReferenceIdeal Idealize.ShloMosaic Idealize.ShloMosaic.ValueIdx
open Cert.ReferenceIdeal.Facts₀ Cert.ReferenceIdeal.Facts
open Cert.ReferenceIdeal.RefTerm (C)

variable [Facts]

/-- The printed dimension records are the plain `M×K` by `K×N` ones. -/
theorem dot1_eq : dot_S50000x128_S128x128_S50000x128_1_0_0_1_n_n = DotDims.plain 50000 128 128 := rfl
theorem dot2_eq : dot_S50000x256_S256x128_S50000x128_1_0_0_1_n_n = DotDims.plain 50000 256 128 := rfl

/-- A bias vector made a row and repeated down the array, at `(r, j)`: the vector at `j`. -/
theorem bias_apply (P : C (F := Ideal) S128 .f32) (r : Fin 50000) (j : Fin 128) :
    broadcastInDim S50000x128 ![0, 1] bcast_S1x128_S50000x128_0_1 (broadcastInDim S1x128 ![1] bcast_S128_S1x128_1 P) (ix2 r j)
      = P (ix1 j) := by
  rw [RowOps.bcast_1b_ab_apply, RowOps.bcast_b_1b_apply]

/-- Row `r` after the two linear maps and the rectifier, as the layer states it. -/
abbrev rowAct (x a : C (F := Ideal) S50000x128 .f32) (aggW : C (F := Ideal) S128x128 .f32) (aggb : C (F := Ideal) S128 .f32)
    (W : C (F := Ideal) S256x128 .f32) (b : C (F := Ideal) S128 .f32) (r : Fin 50000) : Fin 128 → EReal :=
  Layer.act (fun k => x (ix2 r k)) (Layer.aggFeat (fun k => a (ix2 r k)) (fun k j => aggW (ix2 k j)) (fun j => aggb (ix1 j)))
    (fun k j => W (ix2 k j)) (fun j => b (ix1 j))

theorem hidden_apply (x a : C (F := Ideal) S50000x128 .f32) (aggW : C (F := Ideal) S128x128 .f32) (aggb : C (F := Ideal) S128 .f32)
    (W : C (F := Ideal) S256x128 .f32) (b : C (F := Ideal) S128 .f32) (r : Fin 50000) (j : Fin 128) :
    RefTerm.hidden x a aggW aggb W b (ix2 r j) = rowAct x a aggW aggb W b r j := by
  unfold RefTerm.hidden rowAct Layer.act
  rw [maximumf_apply, addf_apply, bias_apply, dot2_eq, RowSums.dot_plain_apply, RowOps.bcast_scalar_apply, constant_apply,
    Ideal.ofBits_zero_f32]
  refine congrArg (fun s => max (s + b (ix1 j)) 0) (Finset.sum_congr rfl fun c _ => ?_)
  rw [RowOps.concat_cols_apply]
  unfold Layer.combined
  split
  · rfl
  · rw [addf_apply, bias_apply, dot1_eq, RowSums.dot_plain_apply]
    rfl

/-- The host's quotient and reciprocal square root at an index are the extended reals' own. -/
theorem hostDivf_apply {s : Shape} (x y : FVec Ideal s .f32) (i : s.Idx) : Host.divf x y i = Ideal.div (x i) (y i) := rfl
theorem hostRsqrt_apply {s : Shape} (x : FVec Ideal s .f32) (i : s.Idx) : Host.rsqrt x i = Ideal.rsqrt (x i) := rfl

/-- The column of row means at row `r`: the mean of the row (the host sum's initial value is `0`). -/
theorem meanCol_apply (h : C (F := Ideal) S50000x128 .f32) (r : Fin 50000) (u : Fin 1) :
    RefTerm.meanCol h (ix2 r u) = Layer.mean (fun k => h (ix2 r k)) := by
  unfold RefTerm.meanCol Layer.mean
  rw [hostDivf_apply, RowOps.bcast_a_a1_apply, RowOps.bcast_scalar_apply, constant_apply,
    RowSums.hostSum_apply _ _ _ _ (by decide), constant_apply, Ideal.ofBits_zero_f32, zero_add]

/-- The column of row variances at row `r`: the divisor `128.0 - 0` is positive, so the select keeps the
    quotient, and the quotient is the variance of the row. -/
theorem varCol_apply (h : C (F := Ideal) S50000x128 .f32) (r : Fin 50000) (u : Fin 1) :
    RefTerm.varCol h (ix2 r u) = Layer.variance (fun k => h (ix2 r k)) := by
  have hm := fun k : Fin 128 => meanCol_apply h r (0 : Fin 1)
  unfold RefTerm.meanCol at hm
  unfold RefTerm.varCol Layer.variance
  rw [select_apply, RowOps.bcast_scalar_apply, cmpf_apply, subf_apply, constant_apply, sitofp_apply, constantI_apply,
    constant_apply, Words.divisor_pos, select_one]
  rw [hostDivf_apply, RowOps.bcast_a_a1_apply, RowOps.bcast_scalar_apply, subf_apply, constant_apply, sitofp_apply,
    constantI_apply, Words.divisor_eq, RowSums.hostSum_apply _ _ _ _ (by decide), constant_apply, Ideal.ofBits_zero_f32, zero_add]
  refine congrArg (fun s => Ideal.div s Layer.c128) (Finset.sum_congr rfl fun k _ => ?_)
  rw [mulf_apply, subf_apply, RowOps.bcast_a1_ab_apply, hm k]
  rfl

/-- The normalisation at `(r, j)`, from the row's mean and variance columns. -/
theorem normed_apply (h : C (F := Ideal) S50000x128 .f32) (mu var : C (F := Ideal) S50000x1 .f32)
    (gamma beta : C (F := Ideal) S128 .f32) (r : Fin 50000) (j : Fin 128) :
    RefTerm.normed h mu var gamma beta (ix2 r j)
      = (h (ix2 r j) - mu (ix2 r (0 : Fin 1))) * Ideal.rsqrt (var (ix2 r (0 : Fin 1)) + Layer.cEps) * gamma (ix1 j) + beta (ix1 j) := by
  unfold RefTerm.normed
  rw [addf_apply, mulf_apply, mulf_apply, subf_apply, bias_apply, bias_apply, RowOps.bcast_a1_ab_apply, RowOps.bcast_a1_ab_apply,
    hostRsqrt_apply, addf_apply, RowOps.bcast_scalar_apply, constant_apply]

/-- The reference's dense part is `Layer.G` of the feature array, the neighbour-mean array and the parameters. -/
theorem dense_eq (x a : C (F := Ideal) S50000x128 .f32) (aggW : C (F := Ideal) S128x128 .f32) (aggb : C (F := Ideal) S128 .f32)
    (W : C (F := Ideal) S256x128 .f32) (b gamma beta : C (F := Ideal) S128 .f32) :
    RefTerm.dense x a aggW aggb W b gamma beta = Layer.G x a aggW aggb W b gamma beta := by
  funext i
  obtain ⟨r, j, rfl⟩ : ∃ (r : Fin 50000) (j : Fin 128), i = ix2 r j := ⟨i 0, i 1, eq_ix2 i⟩
  have hrow : (fun k => RefTerm.hidden x a aggW aggb W b (ix2 r k)) = rowAct x a aggW aggb W b r :=
    funext fun k => hidden_apply x a aggW aggb W b r k
  unfold RefTerm.dense
  rw [normed_apply, meanCol_apply, varCol_apply, hidden_apply, hrow]
  rfl

end Cert.ReferenceIdeal.RefValue

end
-- ==== Proof.lean ====
/-
  The certificate of a graph layer: each node's features concatenated with the mean of its in-neighbours'
  features (passed through a linear map), a second linear map, a rectifier and a layer normalisation.

  Both programs first form the neighbour mean with the same host operations (a gather of source rows, a
  scatter-add into destination rows, a division by the clipped in-degree); it is carried as ONE term,
  `RefTerm.nbrMean`, and never opened. On top of it the kernel walks the 50000 nodes in 25 blocks of 2000 rows
  and the reference treats them all at once. At the ideal values each output row is a function of the same row
  of the feature array and of the neighbour-mean array only — `Layer.rowOut` — so:
    * the block the kernel's body stores is `Layer.G` at 2000 rows of the loaded blocks (KernelRow),
    * hence, the 25 blocks tiling the array, the kernel's result is `Layer.G` at 50000 rows (KernelArray),
    * the reference's dense part is the same `Layer.G` (RefValue): a bias made a row and broadcast, a lane sum
      against a host sum from `0`, jax's variance with its divisor `128 - 0` kept because it is positive,
      the host's reciprocal square root against the vector unit's are the same functions of extended reals.
  No law that could fail at an infinity is used (only `0 + s = s`, `x - 0 = x`), so the precondition is never
  opened. The frames of the two kernel programs are the generated ones; the reference's frame is its run with
  the result dropped. The idealization rewrote nothing, so `preserves` is `True`.
-/
import proofs.«109304_j10385230921949_2_alg».proof.Defs
import proofs.«109304_j10385230921949_2_alg».proof.Proof.Gen.Kernel
import proofs.«109304_j10385230921949_2_alg».proof.Proof.Gen.Kernel.Skeleton
import proofs.«109304_j10385230921949_2_alg».proof.Proof.Gen.Kernel.Launch
import proofs.«109304_j10385230921949_2_alg».proof.Proof.Gen.Kernel.Points
import proofs.«109304_j10385230921949_2_alg».proof.Proof.Gen.Kernel.Frame
import proofs.«109304_j10385230921949_2_alg».proof.Proof.Gen.KernelIdeal
import proofs.«109304_j10385230921949_2_alg».proof.Proof.Gen.KernelIdeal.Skeleton
import proofs.«109304_j10385230921949_2_alg».proof.Proof.Gen.KernelIdeal.Launch
import proofs.«109304_j10385230921949_2_alg».proof.Proof.Gen.KernelIdeal.Points
import proofs.«109304_j10385230921949_2_alg».proof.Proof.Gen.KernelIdeal.Frame
import proofs.«109304_j10385230921949_2_alg».proof.Proof.Gen.KernelIdeal.Value
import proofs.«109304_j10385230921949_2_alg».proof.Proof.Gen.ReferenceIdeal
import proofs.«109304_j10385230921949_2_alg».proof.Proof.Gen.Pre_finite_inputs
import proofs.«109304_j10385230921949_2_alg».proof.Proof.KernelRow
import proofs.«109304_j10385230921949_2_alg».proof.Proof.KernelArray
import proofs.«109304_j10385230921949_2_alg».proof.Proof.RefRun
import proofs.«109304_j10385230921949_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- At the ideal values the kernel's output array is `Layer.G` of the arguments and their neighbour mean (the
    block lemma carried over the 25 blocks), the reference's result is its dense part of the same arguments and
    the same neighbour mean, and that dense part is `Layer.G`. -/
theorem algebraic : Cert.algebraic_KernelIdeal_ReferenceIdeal := by
  intro m ρ m' ρ' _ hagree
  refine ⟨_, Cert.KernelIdeal.KernelArray.run Cert.KernelIdeal.KernelRow.block_eq m ρ, ?_⟩
  refine (θ_run Cert.ReferenceIdeal.defs _ _).mono (fun _ h c => ⟨(h c).1.trans ?_, (h c).2⟩)
    (Cert.ReferenceIdeal.RefRun.run (F := Ideal) m' ρ')
  unfold Cert.ReferenceIdeal.RefTerm.out
  rw [Cert.ReferenceIdeal.RefValue.dense_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
